-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x256 : Shape := ⟨3, ![256, 512, 256]⟩
abbrev S256 : Shape := ⟨1, ![256]⟩
abbrev S128x256x256 : Shape := ⟨3, ![128, 256, 256]⟩
abbrev S128x1x256 : Shape := ⟨3, ![128, 1, 256]⟩
abbrev S_ : Shape := ⟨0, ![]⟩

class Facts : Prop where
  bcast_S_S256x512x256 : S_.BroadcastsInDim S256x512x256 (![] : Fin 0 → Fin S256x512x256.rank)
  reducesTo_S256x512x256_S_d0_1_2 : S256x512x256.ReducesTo [0, 1, 2] S_
  h_S_ : 0 < S_.numel
  bcast_S_S128x256x256 : S_.BroadcastsInDim S128x256x256 (![] : Fin 0 → Fin S128x256x256.rank)
  reducesTo_S128x256x256_S_d0_1_2 : S128x256x256.ReducesTo [0, 1, 2] S_
  bcast_S_S128x1x256 : S_.BroadcastsInDim S128x1x256 (![] : Fin 0 → Fin S128x1x256.rank)
  reducesTo_S128x1x256_S_d0_1_2 : S128x1x256.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_arg1 : IVec S256 32) (main_v13 : IVec S_ 1) (main_v15 : IVec S256 1) (main_c_5 : IVec S_ 1) : IVec S_ 1 :=
  let main_v16 : IVec S_ 1 := (fun x v => Host.reduce IntOp.andi x v reducesTo_S256_S_d0 h_S_) main_v15 main_c_5
  let main_v17 : IVec S_ 1 := andi main_v13 main_v16
  let main_c_6 : IVec S_ 32 := constantI S_ 32 128#32
  let main_v18 : IVec S256 32 := broadcastInDim S256 ![] bcast_S_S256 main_c_6
  let main_v19 : IVec S256 1 := cmpi .slt main_arg1 main_v18
  let main_c_7 : IVec S_ 1 := constantI S_ 1 1#1
  let main_v20 : IVec S_ 1 := (fun x v => Host.reduce IntOp.andi x v reducesTo_S256_S_d0 h_S_) main_v19 main_c_7
  let main_v21 : IVec S_ 1 := andi main_v17 main_v20
  main_v21

def fn {F : FTy → Type} [FloatOps F] (main_arg0 : FVec F S256x512x256 .f32) (main_arg1 : IVec S256 32) (main_arg2 : FVec F S128x256x256 .f32) (main_arg3 : FVec F S128x1x256 .f32) : IVec S_ 1 :=
  let main_v0 : FVec F S256x512x256 .f32 := Host.absf main_arg0
  let main_cst : FVec F S_ .f32 := constant S_ .f32 0x7F800000#32
  let main_v1 : FVec F S256x512x256 .f32 := broadcastInDim S256x512x256 ![] bcast_S_S256x512x256 main_cst
  let main_v2 : IVec S256x512x256 1 := cmpf .olt main_v0 main_v1
  let main_c : IVec S_ 1 := constantI S_ 1 1#1
  let main_v3 : IVec S_ 1 := (fun x v => Host.reduce IntOp.andi x v reducesTo_S256x512x256_S_d0_1_2 h_S_) main_v2 main_c
  let main_v4 : FVec F S128x256x256 .f32 := Host.absf main_arg2
  let main_cst_0 : FVec F S_ .f32 := constant S_ .f32 0x7F800000#32
  let main_v5 : FVec F S128x256x256 .f32 := broadcastInDim S128x256x256 ![] bcast_S_S128x256x256 main_cst_0
  let main_v6 : IVec S128x256x256 1 := cmpf .olt main_v4 main_v5
  let main_c_1 : IVec S_ 1 := constantI S_ 1 1#1
  let main_v7 : IVec S_ 1 := (fun x v => Host.reduce IntOp.andi x v reducesTo_S128x256x256_S_d0_1_2 h_S_) main_v6 main_c_1
  let main_v8 : IVec S_ 1 := andi main_v3 main_v7
  let main_v9 : FVec F S128x1x256 .f32 := Host.absf main_arg3
  let main_cst_2 : FVec F S_ .f32 := constant S_ .f32 0x7F800000#32
  let main_v10 : FVec F S128x1x256 .f32 := broadcastInDim S128x1x256 ![] bcast_S_S128x1x256 main_cst_2
  let main_v11 : IVec S128x1x256 1 := cmpf .olt main_v9 main_v10
  let main_c_3 : IVec S_ 1 := constantI S_ 1 1#1
  let main_v12 : IVec S_ 1 := (fun x v => Host.reduce IntOp.andi x v reducesTo_S128x1x256_S_d0_1_2 h_S_) main_v11 main_c_3
  let main_v13 : IVec S_ 1 := andi main_v8 main_v12
  let main_c_4 : IVec S_ 32 := constantI S_ 32 0#32
  let main_v14 : IVec S256 32 := broadcastInDim S256 ![] bcast_S_S256 main_c_4
  let main_v15 : IVec S256 1 := cmpi .sge main_arg1 main_v14
  let main_c_5 : IVec S_ 1 := constantI S_ 1 1#1
  fn_part1 (F := F) main_arg1 main_v13 main_v15 main_c_5
-- ==== Kernel.lean ====
abbrev S256x512x256 : Shape := ⟨3, ![256, 512, 256]⟩
abbrev S256 : Shape := ⟨1, ![256]⟩
abbrev S128x256x256 : Shape := ⟨3, ![128, 256, 256]⟩
abbrev S128x1x256 : Shape := ⟨3, ![128, 1, 256]⟩
abbrev S1x512x256 : Shape := ⟨3, ![1, 512, 256]⟩
abbrev S1x256x256 : Shape := ⟨3, ![1, 256, 256]⟩
abbrev S1 : Shape := ⟨1, ![1]⟩
abbrev S1x1x256 : Shape := ⟨3, ![1, 1, 256]⟩
abbrev S512x256 : Shape := ⟨2, ![512, 256]⟩
abbrev S256x256 : Shape := ⟨2, ![256, 256]⟩
abbrev S1x256 : Shape := ⟨2, ![1, 256]⟩

abbrev nBuf : Space → Nat
  | .hbm => 4
  | .vmem => 8
  | .smem => 1
  | _ => 0

abbrev bufTy : (tb : Table) → Fin (tcTables nBuf tb) → BufTy
  | .hbm, ⟨0, _⟩ => ⟨S256x512x256, .f32⟩
  | .hbm, ⟨1, _⟩ => ⟨S128x256x256, .f32⟩
  | .hbm, ⟨2, _⟩ => ⟨S128x1x256, .f32⟩
  | .hbm, ⟨3, _⟩ => ⟨S256x512x256, .f32⟩
  | .local _ .vmem, ⟨0, _⟩ => ⟨S1x512x256, .f32⟩
  | .local _ .vmem, ⟨1, _⟩ => ⟨S1x512x256, .f32⟩
  | .local _ .vmem, ⟨2, _⟩ => ⟨S1x256x256, .f32⟩
  | .local _ .vmem, ⟨3, _⟩ => ⟨S1x256x256, .f32⟩
  | .local _ .vmem, ⟨4, _⟩ => ⟨S1x1x256, .f32⟩
  | .local _ .vmem, ⟨5, _⟩ => ⟨S1x1x256, .f32⟩
  | .local _ .vmem, ⟨6, _⟩ => ⟨S1x512x256, .f32⟩
  | .local _ .vmem, ⟨7, _⟩ => ⟨S1x512x256, .f32⟩
  | .local _ .smem, ⟨0, _⟩ => ⟨S256, .i32⟩
  | _, _ => ⟨S256x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![256], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  numel1_S1 : S1.numel = 1
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S512x256 : S1x256.Broadcasts S512x256
  shapeCasts_S512x256_S1x512x256 : S512x256.ShapeCasts S1x512x256
  dot_S512x256_S256x256_S512x256_1_0_0_1_n_n_wf : DotDims.WF S512x256 S256x256 S512x256 [1] [0] [0] [1] [] []
  hrank0 : 0 < grid0.rank
  k0_off1_inb : ∀ i : grid0.Coords, ∀ a, (k0_off1 i) a + S1.size a ≤ S256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S256x512x256.size a
  hwx0_0 : ∀ i : grid0.Coords, EltTy.bits .f32 = 32 ∨ (Rect.block (s := S256x512x256) S1x512x256.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S256x512x256.size a
  hwx0_3 : ∀ i : grid0.Coords, EltTy.bits .f32 = 32 ∨ (Rect.block (s := S256x512x256) S1x512x256.size (cc0_transform_3 i) (hinb0_3 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev spec0_0 : Pipeline.WinSpec sig grid0.rank :=
  Pipeline.WinSpec.ofSpec (Memref.whole main_arg0) S1x512x256.size reads0_0 false false 2 stage0_0 sem0_0 nbuf0_0 hstage0_0

abbrev spec0_1 : Pipeline.WinSpec sig grid0.rank :=
  Pipeline.WinSpec.ofSpec (Memref.whole main_arg2) S1x256x256.size reads0_1 false false 2 stage0_1 sem0_1 nbuf0_1 hstage0_1

abbrev spec0_2 : Pipeline.WinSpec sig grid0.rank :=
  Pipeline.WinSpec.ofSpec (Memref.whole main_arg3) S1x1x256.size reads0_2 false false 2 stage0_2 sem0_2 nbuf0_2 hstage0_2

abbrev spec0_3 : Pipeline.WinSpec sig grid0.rank :=
  Pipeline.WinSpec.ofSpec (Memref.whole main_v0) S1x512x256.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x256x256.size a ≤ S128x256x256.size a), EltTy.bits .f32 = 32 ∨ (Rect.block (s := S128x256x256) S1x256x256.size (cc0_transform_1 k0_off1_inb numel1_S1 pf i) h).WholeWords (EltTy.packing .f32)) ∧
  (∀ i : grid0.Coords, ∃ h : (∀ a, (cc0_transform_2 k0_off1_inb numel1_S1 pf i a + 1) * S1x1x256.size a ≤ S128x1x256.size a), EltTy.bits .f32 = 32 ∨ (Rect.block (s := S128x1x256) S1x1x256.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S256x512x256 : Shape := ⟨3, ![256, 512, 256]⟩
abbrev S256 : Shape := ⟨1, ![256]⟩
abbrev S128x256x256 : Shape := ⟨3, ![128, 256, 256]⟩
abbrev S128x1x256 : Shape := ⟨3, ![128, 1, 256]⟩
abbrev S_ : Shape := ⟨0, ![]⟩
abbrev S256x1 : Shape := ⟨2, ![256, 1]⟩
abbrev S256x256x256 : Shape := ⟨3, ![256, 256, 256]⟩
abbrev S256x1x256 : Shape := ⟨3, ![256, 1, 256]⟩

abbrev nBuf : Space → Nat
  | .hbm => 25
  | .vmem => 0
  | .smem => 0
  | _ => 0

abbrev bufTy : (tb : Table) → Fin (tcTables nBuf tb) → BufTy
  | .hbm, ⟨0, _⟩ => ⟨S256x512x256, .f32⟩
  | .hbm, ⟨1, _⟩ => ⟨S256, .i32⟩
  | .hbm, ⟨2, _⟩ => ⟨S128x256x256, .f32⟩
  | .hbm, ⟨3, _⟩ => ⟨S128x1x256, .f32⟩
  | .hbm, ⟨4, _⟩ => ⟨S_, .i32⟩
  | .hbm, ⟨5, _⟩ => ⟨S256, .i32⟩
  | .hbm, ⟨6, _⟩ => ⟨S256, .i1⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S256, .i32⟩
  | .hbm, ⟨11, _⟩ => ⟨S256x1, .i32⟩
  | .hbm, ⟨12, _⟩ => ⟨S256x256x256, .f32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256, .i32⟩
  | .hbm, ⟨20, _⟩ => ⟨S256x1, .i32⟩
  | .hbm, ⟨21, _⟩ => ⟨S256x1x256, .f32⟩
  | .hbm, ⟨22, _⟩ => ⟨S256x512x256, .f32⟩
  | .hbm, ⟨23, _⟩ => ⟨S256x512x256, .f32⟩
  | .hbm, ⟨24, _⟩ => ⟨S256x512x256, .f32⟩
  | _, _ => ⟨S256x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S256x1x256_S256x512x256_0_1_2 : S256x1x256.BroadcastsInDim S256x512x256 (![0, 1, 2] : Fin 3 → Fin S256x512x256.rank)
  gather_S128x256x256_S256x1_S256x256x256_12_0_n_n_0_1_1256256_wf : GatherDims.WF S128x256x256 S256x1 S256x256x256 [1, 2] [0] [] [0] [] 1 ![1, 256, 256]
  gather_S128x1x256_S256x1_S256x1x256_12_0_n_n_0_1_11256_wf : GatherDims.WF S128x1x256 S256x1 S256x1x256 [1, 2] [0] [] [0] [] 1 ![1, 1, 256]
  dot_S256x512x256_S256x256x256_S256x512x256_2_1_1_2_0_0_wf : DotDims.WF S256x512x256 S256x256x256 S256x512x256 [2] [1] [1] [2] [0] [0]

variable [Facts₀]

def gather_S128x256x256_S256x1_S256x256x256_12_0_n_n_0_1_1256256 : GatherDims S128x256x256 S256x1 S256x256x256 where
  offsetDims := [1, 2]
  collapsedSliceDims := [0]
  operandBatchingDims := []
  startIndicesBatchingDims := []
  startIndexMap := [0]
  indexVectorDim := 1
  sliceSizes := ![1, 256, 256]
  wf := gather_S128x256x256_S256x1_S256x256x256_12_0_n_n_0_1_1256256_wf
def gather_S128x1x256_S256x1_S256x1x256_12_0_n_n_0_1_11256 : GatherDims S128x1x256 S256x1 S256x1x256 where
  offsetDims := [1, 2]
  collapsedSliceDims := [0]
  operandBatchingDims := []
  startIndicesBatchingDims := []
  startIndexMap := [0]
  indexVectorDim := 1
  sliceSizes := ![1, 1, 256]
  wf := gather_S128x1x256_S256x1_S256x1x256_12_0_n_n_0_1_11256_wf
def dot_S256x512x256_S256x256x256_S256x512x256_2_1_1_2_0_0 : DotDims S256x512x256 S256x256x256 S256x512x256 where
  lhsContracting := [2]
  rhsContracting := [1]
  lhsNonContracting := [1]
  rhsNonContracting := [2]
  lhsBatch := [0]
  rhsBatch := [0]
  wf := dot_S256x512x256_S256x256x256_S256x512x256_2_1_1_2_0_0_wf

class Facts : Prop extends Facts₀ where

variable [Facts]
-- ==== Proof.Domain.lean ====
/-
  The subject words are slab numbers. The precondition's last two conjuncts say, of every subject word `w`, that
  `0 ≤ w` and `w < 128` as signed integers (each a reduction by `and` of a comparison against a broadcast constant,
  read back element by element). Such a word has its top bit clear, so its natural value is below 128 too. Only the
  integer conjuncts are opened: the statement holds whatever the float instance is.
-/
import proofs.«100180_j77214922047957_1_alg».proof.Pre_finite_inputs
import proofs.«100180_j77214922047957_1_alg».proof.Proof.Gen.Pre_finite_inputs
import Idealize.ShloMosaic.Lib.ReduceAll
import Idealize.ShloMosaic.Lib.ValueIdx
import Idealize.ShloMosaic.Lib.Pipeline.Value

noncomputable section

namespace Cert.Pre_finite_inputs.Domain

open Cert.Pre_finite_inputs Idealize.ShloMosaic Idealize.ShloMosaic.ValueIdx

variable {F : FTy → Type} [FloatOps F] [Cert.Pre_finite_inputs.Facts]

/-- The rank-0 shape has one index. -/
instance : Subsingleton S_.Idx := ⟨fun a b => funext fun d => d.elim0⟩

/-- A 32-bit word that is at least 0 and below 128 as a signed integer has natural value below 128. -/
theorem toNat_lt_of_signed (w : BitVec 32) (h0 : (0#32 : BitVec 32).toInt ≤ w.toInt)
    (h1 : w.toInt < (128#32 : BitVec 32).toInt) : w.toNat < 128 := by
  have e0 : (0#32 : BitVec 32).toInt = 0 := by decide
  have e1 : (128#32 : BitVec 32).toInt = 128 := by decide
  rw [e0] at h0
  rw [e1] at h1
  have hw := w.isLt
  rw [BitVec.toInt_eq_toNat_cond] at h0 h1
  by_cases h : 2 * w.toNat < 2 ^ 32
  · rw [if_pos h] at h1; omega
  · rw [if_neg h] at h0; omega

/-- Under the precondition every subject word has natural value below 128. -/
theorem subject_lt (x0 : FVec F S256x512x256 .f32) (s : IVec S256 32) (x2 : FVec F S128x256x256 .f32)
    (x3 : FVec F S128x1x256 .f32) (h : fn (F := F) x0 s x2 x3 = fun _ => 1#1) (b : S256.Idx) : (s b).toNat < 128 := by
  have e := congrFun h ix0
  dsimp only [fn, fn_part1] at e
  obtain ⟨e1, hlt⟩ := IntOp.andi_eq_one.1 e
  obtain ⟨-, hge⟩ := IntOp.andi_eq_one.1 e1
  have hge' := Host.reduce_andi_all _ _ _ _ ix0 hge b
  have hlt' := Host.reduce_andi_all _ _ _ _ ix0 hlt b
  have c0 : broadcastInDim S256 ![] Facts.bcast_S_S256 (constantI S_ 32 0#32) b = 0#32 :=
    broadcastInDim_apply _ Facts.bcast_S_S256 _ b ix0 (fun a => a.elim0)
  have c128 : broadcastInDim S256 ![] Facts.bcast_S_S256 (constantI S_ 32 128#32) b = 128#32 :=
    broadcastInDim_apply _ Facts.bcast_S_S256 _ b ix0 (fun a => a.elim0)
  have g : IntOp.cmpi .sge (s b) 0#32 = 1#1 := by rw [← c0]; exact hge'
  have l : IntOp.cmpi .slt (s b) 128#32 = 1#1 := by rw [← c128]; exact hlt'
  exact toNat_lt_of_signed (s b) (IntOp.cmpi_sge.1 g) (IntOp.cmpi_slt.1 l)

end Cert.Pre_finite_inputs.Domain

end
-- ==== Proof.KernelOk.lean ====
/-
  The word-level kernel's side condition on the prefetched subject table: the weight window's block `(w, 0, 0)` of
  extent `[1, 256, 256]` lies inside the `[128, 256, 256]` weight array, and the bias window's block `(w, 0, 0)` of
  extent `[1, 1, 256]` inside the `[128, 1, 256]` bias array, as soon as the table's word `w` has natural value below
  128. Both are 32-bit float arrays, so the transfers' ends are whole words.
-/
import proofs.«100180_j77214922047957_1_alg».proof.Proof.Gen.Kernel.Frame

set_option maxRecDepth 16384

noncomputable section

namespace Cert.Kernel.Rows

open Cert.Kernel Cert.Kernel.Gen
open Idealize.ShloMosaic Idealize.ShloMosaic.TcCoe Idealize.SL.Sem

variable {F : FTy → Type} [FloatOps F]

/-- When every subject word has natural value below 128, every weight and bias block is inside its array. -/
theorem ok_of_lt (m : (ℓ : Loc nD τ sig) → Buf (Elt F) ℓ) (hs : ∀ b : S256.Idx, (tbl m 0 b).toNat < 128) : Ok m := by
  refine ⟨fun i => ?_, fun i => ?_⟩
  · obtain ⟨w, hw, e⟩ : ∃ w : BitVec 32, w.toNat < 128
        ∧ cc0_transform_1 Facts₀.k0_off1_inb Facts₀.numel1_S1 (tbl m) i = ![w.toNat, 0, 0] := ⟨_, hs _, rfl⟩
    refine ⟨fun a => ?_, Or.inl rfl⟩
    rw [e]
    fin_cases a <;> simp [S1x256x256, S128x256x256] <;> omega
  · obtain ⟨w, hw, e⟩ : ∃ w : BitVec 32, w.toNat < 128
        ∧ cc0_transform_2 Facts₀.k0_off1_inb Facts₀.numel1_S1 (tbl m) i = ![w.toNat, 0, 0] := ⟨_, hs _, rfl⟩
    refine ⟨fun a => ?_, Or.inl rfl⟩
    rw [e]
    fin_cases a <;> simp [S1x1x256, S128x1x256] <;> omega

end Cert.Kernel.Rows

end
-- ==== Proof.KernelBlock.lean ====
/-
  What the body leaves in the output's staging buffer: its one store covers the whole `[1, 512, 256]` block, and the
  three loads read their whole staging buffers, so the buffer ends holding the body's arithmetic of the three input
  blocks, whatever it held before. Stated at any float instance.
-/
import proofs.«100180_j77214922047957_1_alg».proof.Proof.Gen.KernelIdeal.Frame
import Idealize.ShloMosaic.Lib.Pipeline.Value
import Idealize.ShloMosaic.Lib.Tactic

noncomputable section

namespace Cert.KernelIdeal.Block

open Cert.KernelIdeal Cert.KernelIdeal.Gen
open Idealize.ShloMosaic Idealize.ShloMosaic.TcCoe Idealize.SL.Sem

variable {F : FTy → Type} [FloatOps F]

/-- The three zero offsets, as the constant function. -/
theorem hz : (![0, 0, 0] : Fin 3 → Nat) = fun _ => 0 := funext fun a => by fin_cases a <;> rfl

/-- The output's staging buffer after the body: the body's arithmetic of the row block `x0`, the weight slab `x1` and
    the bias row `x2`. -/
theorem out_eq (c : Dev nD) (i : grid0.Coords) (arg2 : Memref sig .tc .vmem S1x512x256 .f32) (harg2 : arg2.IsWhole)
    (arg3 : Memref sig .tc .vmem S1x256x256 .f32) (harg3 : arg3.IsWhole) (arg4 : Memref sig .tc .vmem S1x1x256 .f32)
    (harg4 : arg4.IsWhole) (arg5 : Memref sig .tc .vmem S1x512x256 .f32) (harg5 : arg5.IsWhole)
    (x0 : Vec F S1x512x256 .f32) (x1 : Vec F S1x256x256 .f32) (x2 : Vec F S1x1x256 .f32) (xt0 : TbBuf0 (F := F) c tbM0_0) :
    out0_A_3 c i arg2 harg2 arg3 harg3 arg4 harg4 arg5 harg5 x0 x1 x2 xt0 = k0_pay1 x0 x1 x2 := by
  unfold out0_A_3
  rw [View.read_writes_eq_canon _ _ _ (cover0_A_3 c i arg2 harg2 arg3 harg3 arg4 harg4 arg5 harg5 x0 x1 x2 xt0)]
  unfold kernelRun0_A
  dsimp only
  rw [View.canon_unit_zero hz]
  simp only [View.readAt_eq_ld, harg2.read_unread, harg3.read_unread, harg4.read_unread,
    View.ld_unit_zero (S := S1x512x256) hz, View.ld_unit_zero (S := S1x256x256) hz, View.ld_unit_zero (S := S1x1x256) hz]

end Cert.KernelIdeal.Block

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.KernelPayload.lean ====
/-
  What the kernel body stores, read at an index: the block it writes is, at row `t` and column `o`, the sum over `i`
  of the loaded row block's `(t, i)` entry times the loaded weight slab's `(i, o)` entry, plus the loaded bias row's
  entry `o`. The body's casts only drop or add a leading axis of extent one; its product runs into a zero accumulator,
  which on the extended reals is the plain sum of products; the bias row is repeated down the 512 rows.
-/
import proofs.«100180_j77214922047957_1_alg».proof.Proof.Gen.KernelIdeal.Skeleton
import proofs.«100180_j77214922047957_1_alg».proof.Proof.Gen.KernelIdeal
import proofs.«100180_j77214922047957_1_alg».proof.Proof.LibRowMax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx

/-- The stored block at `(u, t, o)`: the row block times the weight slab at `(t, o)`, plus the bias row at `o`. -/
theorem pay_apply (x0 : Vec Ideal S1x512x256 .f32) (x1 : Vec Ideal S1x256x256 .f32) (x2 : Vec Ideal S1x1x256 .f32)
    (u : Fin 1) (t : Fin 512) (o : Fin 256) :
    k0_pay1 (F := Ideal) x0 x1 x2 (ix3 u t o)
      = (∑ i : Fin 256, x0 (ix3 (0 : Fin 1) t i) * x1 (ix3 (0 : Fin 1) i o)) + x2 (ix3 (0 : Fin 1) (0 : Fin 1) o) := by
  unfold k0_pay1
  refine (shapeCast_ab_1ab_apply _ Facts₀.shapeCasts_S512x256_S1x512x256 u t o).trans ?_
  refine (addf_apply _ _ (ix2 t o)).trans ?_
  refine congrArg₂ (· + ·) ?_ ?_
  · refine (Cert.LibRowMax.matmul_plain_apply (a := 512) (k := 256) (b := 256)
      Facts₀.dot_S512x256_S256x256_S512x256_1_0_0_1_n_n_wf (some .fp32) _ _ t o).trans ?_
    refine Finset.sum_congr rfl fun i _ => ?_
    exact congrArg₂ (· * ·) (shapeCast_1ab_ab_apply x0 Facts₀.shapeCasts_S1x512x256_S512x256 t i)
      (shapeCast_1ab_ab_apply x1 Facts₀.shapeCasts_S1x256x256_S256x256 i o)
  · refine (broadcastTo_1b_ab_apply _ Facts₀.broadcasts_S1x256_S512x256 t o).trans ?_
    exact shapeCast_1ab_ab_apply x2 Facts₀.shapeCasts_S1x1x256_S1x256 (0 : Fin 1) o

end Cert.KernelIdeal.Payload

end
-- ==== Proof.Layer.lean ====
/-
  The per-subject affine layer, as one function of the four argument arrays.

  `x : [256, 512, 256]` holds, for each of 256 batch rows, 512 time steps of 256 features; `s : [256]` names one of 128
  subjects per batch row; `W : [128, 256, 256]` and `β : [128, 1, 256]` hold one weight matrix and one bias row per
  subject. Entry `(b, t, o)` of the result is the sum over the input feature `i` of `x[b, t, i] · W[σ, i, o]`, plus
  `β[σ, 0, o]`, where `σ` is the slab batch row `b`'s subject word names. The sum and the one addition are taken on the
  extended reals as they stand: nothing is rearranged, so no finiteness is needed anywhere.
-/
import Idealize.ShloMosaic.PureOps.Ideal
import Idealize.ShloMosaic.Lib.ValueIdx

noncomputable section

namespace Cert.SubjectLayer

open Idealize.ShloMosaic Idealize.ShloMosaic.ValueIdx

/-- The slab of the weight and bias arrays a subject word names: the word's natural value, capped at the last of the
    128 slabs (a word below 128 names the slab of its own value). -/
def slab (w : BitVec 32) : Fin 128 := ⟨min w.toNat 127, by omega⟩

/-- A word below 128 names the slab of its own value. -/
theorem slab_val {w : BitVec 32} (h : w.toNat < 128) : (slab w).val = w.toNat := by
  show min w.toNat 127 = w.toNat
  omega

/-- Entry `(b, t, o)` of the layer's result. -/
def entry (x : (⟨3, ![256, 512, 256]⟩ : Shape).Idx → EReal) (s : (⟨1, ![256]⟩ : Shape).Idx → BitVec 32)
    (W : (⟨3, ![128, 256, 256]⟩ : Shape).Idx → EReal) (β : (⟨3, ![128, 1, 256]⟩ : Shape).Idx → EReal)
    (b : Fin 256) (t : Fin 512) (o : Fin 256) : EReal :=
  (∑ i : Fin 256, x (ix3 b t i) * W (ix3 (slab (s (ix1 b))) i o)) + β (ix3 (slab (s (ix1 b))) (0 : Fin 1) o)

/-- The layer's result array. -/
def layer (x : (⟨3, ![256, 512, 256]⟩ : Shape).Idx → EReal) (s : (⟨1, ![256]⟩ : Shape).Idx → BitVec 32)
    (W : (⟨3, ![128, 256, 256]⟩ : Shape).Idx → EReal) (β : (⟨3, ![128, 1, 256]⟩ : Shape).Idx → EReal) :
    (⟨3, ![256, 512, 256]⟩ : Shape).Idx → EReal :=
  fun j => entry x s W β ⟨(j 0).val, (j 0).isLt⟩ ⟨(j 1).val, (j 1).isLt⟩ ⟨(j 2).val, (j 2).isLt⟩

/-- The result array read at an index given by its coordinates. -/
theorem layer_ix3 (x : (⟨3, ![256, 512, 256]⟩ : Shape).Idx → EReal) (s : (⟨1, ![256]⟩ : Shape).Idx → BitVec 32)
    (W : (⟨3, ![128, 256, 256]⟩ : Shape).Idx → EReal) (β : (⟨3, ![128, 1, 256]⟩ : Shape).Idx → EReal)
    (b : Fin 256) (t : Fin 512) (o : Fin 256) : layer x s W β (ix3 b t o) = entry x s W β b t o := rfl

end Cert.SubjectLayer

end
-- ==== Proof.KernelRows.lean ====
/-
  The kernel's result array is the layer function of its arguments.

  The grid has one point per batch row. At point `t` the row-block windows (the input `x` and the result) sit at block
  `(t, 0, 0)` of their arrays, and the weight and bias windows at block `(w, 0, 0)`, `w` the natural value of the
  prefetched subject word of batch row `t`; every block has extent one on its first axis. So what point `t` writes
  back — the body's arithmetic of the three fetched blocks — is, at `(0, r, o)`, the sum over `i` of
  `x[t, r, i] · W[w, i, o]` plus `β[w, 0, o]`: batch row `t` of the layer. The 256 written blocks tile the result
  array (the block covering batch row `b` is point `b`'s), so the array ends holding the layer.

  The pipeline's side condition on the table (each table-indexed block inside its array) holds when every subject word
  has natural value below 128: block `w` of extent one is then inside the first axis of extent 128.
-/
import proofs.«100180_j77214922047957_1_alg».proof.Proof.Gen.KernelIdeal.Frame
import proofs.«100180_j77214922047957_1_alg».proof.Proof.KernelBlock
import proofs.«100180_j77214922047957_1_alg».proof.Proof.KernelPayload
import proofs.«100180_j77214922047957_1_alg».proof.Proof.Layer
import Idealize.ShloMosaic.Lib.Pipeline.Value
import Idealize.ShloMosaic.Lib.ValueIdx

set_option maxRecDepth 16384

noncomputable section

namespace Cert.KernelIdeal.Rows

open Cert.KernelIdeal Cert.KernelIdeal.Gen Cert.SubjectLayer
open Idealize.ShloMosaic Idealize.ShloMosaic.TcCoe Idealize.SL.Sem Idealize.ShloMosaic.ValueIdx
open Idealize.ShloMosaic.Pipeline (Dat)

variable {F : FTy → Type} [FloatOps F]

/-! ## The grid and the index maps -/

/-- The one coordinate of grid point `t` is `t`. -/
theorem coord0 (t : Fin grid0.N) : (grid0.coords t 0).val = t.val := by
  have h := t.isLt
  have hN : grid0.N = 256 := N_0
  show t.val / grid0.stride 0 % 256 = t.val
  rw [show grid0.stride 0 = 1 from by decide]
  omega

/-- The input row-block window's index map: block `(i, 0, 0)` at grid coordinate `i`. -/
theorem map_rows0 (i : grid0.Coords) : cc0_transform_0 i = ![(i 0).val, 0, 0] := by
  have hi : (i 0).val < 256 := (i 0).isLt
  refine funext fun (a : Fin 3) => ?_
  match a with
  | ⟨0, _⟩ => show (BitVec.ofNat 32 (i 0).val).toNat = (i 0).val; rw [BitVec.toNat_ofNat]; omega
  | ⟨1, _⟩ => rfl
  | ⟨2, _⟩ => rfl

/-- The result window's index map: block `(i, 0, 0)` at grid coordinate `i`. -/
theorem map_rows3 (i : grid0.Coords) : cc0_transform_3 i = ![(i 0).val, 0, 0] := by
  have hi : (i 0).val < 256 := (i 0).isLt
  refine funext fun (a : Fin 3) => ?_
  match a with
  | ⟨0, _⟩ => show (BitVec.ofNat 32 (i 0).val).toNat = (i 0).val; rw [BitVec.toNat_ofNat]; omega
  | ⟨1, _⟩ => rfl
  | ⟨2, _⟩ => rfl

/-- The one index of a unit rectangle at offset `n` of the subject table is index `n`. -/
theorem unit_emb (n : Nat) (hn : n < 256) (off : Fin 1 → Nat) (hoff : off 0 = n)
    (inb : ∀ a, off a + S1.size a ≤ S256.size a) (h1 : 0 < S1.numel) :
    (Rect.unit (s := S256) off S1.size inb).emb (Shape.Idx.first h1) = ix1 (⟨n, hn⟩ : Fin 256) := by
  refine funext fun (ax : Fin 1) => Fin.ext ?_
  match ax with
  | ⟨0, _⟩ =>
    show off 0 + 1 * (Shape.Idx.first h1 (0 : Fin 1)).val = n
    have := (Shape.Idx.first h1 (0 : Fin 1)).isLt
    have e : S1.size (0 : Fin 1) = 1 := by decide
    omega

/-- The weight window's index map: block `(w, 0, 0)`, `w` the natural value of the table's word at grid coordinate `i`. -/
theorem map_slab1 (pf : pre0.Contents (Elt F)) (i : grid0.Coords) :
    cc0_transform_1 Facts₀.k0_off1_inb Facts₀.numel1_S1 pf i
      = ![(pf 0 (ix1 (⟨(i 0).val, (i 0).isLt⟩ : Fin 256))).toNat, 0, 0] := by
  have hi : (i 0).val < 256 := (i 0).isLt
  refine funext fun (a : Fin 3) => ?_
  match a with
  | ⟨0, _⟩ =>
    exact congrArg (fun z : S256.Idx => (pf 0 z).toNat) (unit_emb (i 0).val hi _
      (by show (BitVec.ofNat 32 (i 0).val).toNat = (i 0).val; rw [BitVec.toNat_ofNat]; omega) _ _)
  | ⟨1, _⟩ => rfl
  | ⟨2, _⟩ => rfl

/-- The bias window's index map: the same block index. -/
theorem map_slab2 (pf : pre0.Contents (Elt F)) (i : grid0.Coords) :
    cc0_transform_2 Facts₀.k0_off1_inb Facts₀.numel1_S1 pf i
      = ![(pf 0 (ix1 (⟨(i 0).val, (i 0).isLt⟩ : Fin 256))).toNat, 0, 0] := by
  have hi : (i 0).val < 256 := (i 0).isLt
  refine funext fun (a : Fin 3) => ?_
  match a with
  | ⟨0, _⟩ =>
    exact congrArg (fun z : S256.Idx => (pf 0 z).toNat) (unit_emb (i 0).val hi _
      (by show (BitVec.ofNat 32 (i 0).val).toNat = (i 0).val; rw [BitVec.toNat_ofNat]; omega) _ _)
  | ⟨1, _⟩ => rfl
  | ⟨2, _⟩ => rfl

/-! ## The pipeline's side condition on the table -/

/-- When every subject word has natural value below 128, every weight and bias block is inside its array. -/
theorem ok_of_lt (m : (ℓ : Loc nD τ sig) → Buf (Elt F) ℓ) (hs : ∀ b : S256.Idx, (tbl m 0 b).toNat < 128) : Ok m := by
  refine ⟨fun i => ?_, fun i => ?_⟩
  · obtain ⟨w, hw, e⟩ : ∃ w : BitVec 32, w.toNat < 128
        ∧ cc0_transform_1 Facts₀.k0_off1_inb Facts₀.numel1_S1 (tbl m) i = ![w.toNat, 0, 0] := ⟨_, hs _, rfl⟩
    refine ⟨fun a => ?_, Or.inl rfl⟩
    rw [e]
    fin_cases a <;> simp [S1x256x256, S128x256x256] <;> omega
  · obtain ⟨w, hw, e⟩ : ∃ w : BitVec 32, w.toNat < 128
        ∧ cc0_transform_2 Facts₀.k0_off1_inb Facts₀.numel1_S1 (tbl m) i = ![w.toNat, 0, 0] := ⟨_, hs _, rfl⟩
    refine ⟨fun a => ?_, Or.inl rfl⟩
    rw [e]
    fin_cases a <;> simp [S1x1x256, S128x1x256] <;> omega

/-! ## What each point writes back, and the array after the run -/

variable (m : (ℓ : Loc nD τ sig) → Buf (Elt Ideal) ℓ) (ρ : Dev nD → PrngReg) (hO : Ok m)

/-- The layer function of the argument arrays as launched: what the result array ends holding. -/
abbrev result (c : Dev nD) : Buf (Elt Ideal) ((c : Thread nD τ).loc main_v0) :=
  layer (m ((c : Thread nD τ).loc main_arg0)) (m ((c : Thread nD τ).loc main_arg1)) (m ((c : Thread nD τ).loc main_arg2))
    (m ((c : Thread nD τ).loc main_arg3))

/-- Where the result window's block at point `t` sits: local index `(u, r, o)` is array index `(t, r, o)`. -/
theorem emb_out (t : Fin (cfgM m hO).N) (ht : t.val < 256) (u : Fin 1) (r : Fin 512) (o : Fin 256) :
    (((cfgM m hO).win 3).blk t).view.emb (ix3 u r o) = ix3 (⟨t.val, ht⟩ : Fin 256) r o := by
  refine funext fun (a : Fin 3) => Fin.ext ?_
  have h0 := map_rows3 (grid0.coords t)
  match a with
  | ⟨0, _⟩ =>
    show cc0_transform_3 (grid0.coords t) 0 * 1 + 1 * u.val = t.val
    rw [h0]
    show (grid0.coords t 0).val * 1 + 1 * u.val = t.val
    rw [coord0]; omega
  | ⟨1, _⟩ =>
    show cc0_transform_3 (grid0.coords t) 1 * 512 + 1 * r.val = r.val
    rw [h0]; show 0 * 512 + 1 * r.val = r.val; omega
  | ⟨2, _⟩ =>
    show cc0_transform_3 (grid0.coords t) 2 * 256 + 1 * o.val = o.val
    rw [h0]; show 0 * 256 + 1 * o.val = o.val; omega

/-- Where the input row block at point `t` sits: local index `(u, r, i)` is array index `(t, r, i)`. -/
theorem emb_rows (t : Fin (cfgM m hO).N) (ht : t.val < 256) (u : Fin 1) (r : Fin 512) (i : Fin 256) :
    (((cfgM m hO).win 0).blk t).view.emb (ix3 u r i) = ix3 (⟨t.val, ht⟩ : Fin 256) r i := by
  refine funext fun (a : Fin 3) => Fin.ext ?_
  have h0 := map_rows0 (grid0.coords t)
  match a with
  | ⟨0, _⟩ =>
    show cc0_transform_0 (grid0.coords t) 0 * 1 + 1 * u.val = t.val
    rw [h0]
    show (grid0.coords t 0).val * 1 + 1 * u.val = t.val
    rw [coord0]; omega
  | ⟨1, _⟩ =>
    show cc0_transform_0 (grid0.coords t) 1 * 512 + 1 * r.val = r.val
    rw [h0]; show 0 * 512 + 1 * r.val = r.val; omega
  | ⟨2, _⟩ =>
    show cc0_transform_0 (grid0.coords t) 2 * 256 + 1 * i.val = i.val
    rw [h0]; show 0 * 256 + 1 * i.val = i.val; omega

/-- The table's word for grid point `t` is the subject word of batch row `t`. -/
theorem table_word (t : Fin (cfgM m hO).N) (ht : t.val < 256) :
    tbl m 0 (ix1 (⟨(grid0.coords t 0).val, (grid0.coords t 0).isLt⟩ : Fin 256))
      = m (((0 : Dev nD) : Thread nD τ).loc main_arg1) (ix1 (⟨t.val, ht⟩ : Fin 256)) :=
  congrArg (m (((0 : Dev nD) : Thread nD τ).loc main_arg1))
    (congrArg (fun k : Fin 256 => ix1 k) (Fin.ext (coord0 t)))

/-- Where the weight slab at point `t` sits: local index `(u, i, o)` is array index `(σ, i, o)`, `σ` the slab batch row
    `t`'s subject word names. -/
theorem emb_weights (hs : ∀ b : S256.Idx, (tbl m 0 b).toNat < 128) (t : Fin (cfgM m hO).N) (ht : t.val < 256)
    (u : Fin 1) (i : Fin 256) (o : Fin 256) :
    (((cfgM m hO).win 1).blk t).view.emb (ix3 u i o)
      = ix3 (slab (m (((0 : Dev nD) : Thread nD τ).loc main_arg1) (ix1 (⟨t.val, ht⟩ : Fin 256)))) i o := by
  refine funext fun (a : Fin 3) => Fin.ext ?_
  have h1 := map_slab1 (tbl m) (grid0.coords t)
  have hw := table_word m hO t ht
  have hlt := hs (ix1 (⟨(grid0.coords t 0).val, (grid0.coords t 0).isLt⟩ : Fin 256))
  match a with
  | ⟨0, _⟩ =>
    show cc0_transform_1 Facts₀.k0_off1_inb Facts₀.numel1_S1 (tbl m) (grid0.coords t) 0 * 1 + 1 * u.val
      = (slab (m (((0 : Dev nD) : Thread nD τ).loc main_arg1) (ix1 (⟨t.val, ht⟩ : Fin 256)))).val
    rw [h1, ← hw, slab_val hlt]
    show (tbl m 0 (ix1 (⟨(grid0.coords t 0).val, (grid0.coords t 0).isLt⟩ : Fin 256))).toNat * 1 + 1 * u.val = _
    omega
  | ⟨1, _⟩ =>
    show cc0_transform_1 Facts₀.k0_off1_inb Facts₀.numel1_S1 (tbl m) (grid0.coords t) 1 * 256 + 1 * i.val = i.val
    rw [h1]; show 0 * 256 + 1 * i.val = i.val; omega
  | ⟨2, _⟩ =>
    show cc0_transform_1 Facts₀.k0_off1_inb Facts₀.numel1_S1 (tbl m) (grid0.coords t) 2 * 256 + 1 * o.val = o.val
    rw [h1]; show 0 * 256 + 1 * o.val = o.val; omega

/-- Where the bias row at point `t` sits: local index `(u, v, o)` is array index `(σ, v, o)`. -/
theorem emb_bias (hs : ∀ b : S256.Idx, (tbl m 0 b).toNat < 128) (t : Fin (cfgM m hO).N) (ht : t.val < 256)
    (u : Fin 1) (v : Fin 1) (o : Fin 256) :
    (((cfgM m hO).win 2).blk t).view.emb (ix3 u v o)
      = ix3 (slab (m (((0 : Dev nD) : Thread nD τ).loc main_arg1) (ix1 (⟨t.val, ht⟩ : Fin 256)))) v o := by
  refine funext fun (a : Fin 3) => Fin.ext ?_
  have h2 := map_slab2 (tbl m) (grid0.coords t)
  have hw := table_word m hO t ht
  have hlt := hs (ix1 (⟨(grid0.coords t 0).val, (grid0.coords t 0).isLt⟩ : Fin 256))
  match a with
  | ⟨0, _⟩ =>
    show cc0_transform_2 Facts₀.k0_off1_inb Facts₀.numel1_S1 (tbl m) (grid0.coords t) 0 * 1 + 1 * u.val
      = (slab (m (((0 : Dev nD) : Thread nD τ).loc main_arg1) (ix1 (⟨t.val, ht⟩ : Fin 256)))).val
    rw [h2, ← hw, slab_val hlt]
    show (tbl m 0 (ix1 (⟨(grid0.coords t 0).val, (grid0.coords t 0).isLt⟩ : Fin 256))).toNat * 1 + 1 * u.val = _
    omega
  | ⟨1, _⟩ =>
    show cc0_transform_2 Facts₀.k0_off1_inb Facts₀.numel1_S1 (tbl m) (grid0.coords t) 1 * 1 + 1 * v.val = v.val
    rw [h2]; show 0 * 1 + 1 * v.val = v.val; omega
  | ⟨2, _⟩ =>
    show cc0_transform_2 Facts₀.k0_off1_inb Facts₀.numel1_S1 (tbl m) (grid0.coords t) 2 * 256 + 1 * o.val = o.val
    rw [h2]; show 0 * 256 + 1 * o.val = o.val; omega

/-- WHAT POINT `t` WRITES BACK is block `t` of the layer of the argument arrays. -/
theorem flushed_eq (hs : ∀ b : S256.Idx, (tbl m 0 b).toNat < 128) (c : Dev nD) (t : Fin (cfgM m hO).N) :
    (dats m hO 0 c).flushed 3 t = (((cfgM m hO).win 3).blk t).view.read (Elt Ideal) (result m c) := by
  obtain rfl : c = 0 := Subsingleton.elim _ _
  show ((cfgM m hO).win 3).cut (grid0.coords t) ((dats m hO 0 0).after 3 t) = _
  have e : outsAt0 m hO 0 t = k0_pay1 (F := Ideal) (iblk m hO 0 0 t) (iblk m hO 0 1 t) (iblk m hO 0 2 t) :=
    Block.out_eq 0 (grid0.coords t) (ms0_0 m hO t) (hs0_0 m hO t) (ms0_1 m hO t) (hs0_1 m hO t) (ms0_2 m hO t) (hs0_2 m hO t)
      (ms0_3 m hO t) (hs0_3 m hO t) (iblk m hO 0 0 t) (iblk m hO 0 1 t) (iblk m hO 0 2 t) (tbl m 0)
  rw [after0_3, e]
  refine funext fun (y : S1x512x256.Idx) => ?_
  show k0_pay1 (F := Ideal) (iblk m hO 0 0 t) (iblk m hO 0 1 t) (iblk m hO 0 2 t) y
    = result m 0 ((((cfgM m hO).win 3).blk t).view.emb y)
  obtain ⟨u, r, o, rfl⟩ : ∃ (u : Fin 1) (r : Fin 512) (o : Fin 256), y = ix3 u r o := ⟨y 0, y 1, y 2, eq_ix3 y⟩
  refine (Payload.pay_apply (iblk m hO 0 0 t) (iblk m hO 0 1 t) (iblk m hO 0 2 t) u r o).trans ?_
  have ht : t.val < 256 := Nat.lt_of_lt_of_eq t.isLt N_0
  refine Eq.trans ?_ (congrArg (result m 0) (emb_out m hO t ht u r o)).symm
  refine Eq.trans ?_ (layer_ix3 _ _ _ _ (⟨t.val, ht⟩ : Fin 256) r o).symm
  unfold entry
  refine congrArg₂ (· + ·) (Finset.sum_congr rfl fun i _ => congrArg₂ (· * ·) ?_ ?_) ?_
  · show V m 0 main_arg0 ((((cfgM m hO).win 0).blk t).view.emb (ix3 (0 : Fin 1) r i)) = _
    exact congrArg (m (((0 : Dev nD) : Thread nD τ).loc main_arg0)) (emb_rows m hO t ht 0 r i)
  · show V m 0 main_arg2 ((((cfgM m hO).win 1).blk t).view.emb (ix3 (0 : Fin 1) i o)) = _
    exact congrArg (m (((0 : Dev nD) : Thread nD τ).loc main_arg2)) (emb_weights m hO hs t ht 0 i o)
  · show V m 0 main_arg3 ((((cfgM m hO).win 2).blk t).view.emb (ix3 (0 : Fin 1) (0 : Fin 1) o)) = _
    exact congrArg (m (((0 : Dev nD) : Thread nD τ).loc main_arg3)) (emb_bias m hO hs t ht 0 0 o)

end Cert.KernelIdeal.Rows

end
-- ==== Proof.KernelRun.lean ====
/-
  The kernel's run, read: the 256 blocks the grid points write back tile the result array — batch row `b` is covered
  by point `b`'s block, which is the whole `[1, 512, 256]` slice at that row — so the array ends holding the layer
  function of the arguments, and the four argument arrays end as they were launched.
-/
import proofs.«100180_j77214922047957_1_alg».proof.Proof.KernelRows

set_option maxRecDepth 16384

noncomputable section

namespace Cert.KernelIdeal.Rows

open Cert.KernelIdeal Cert.KernelIdeal.Gen Cert.SubjectLayer
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- An index of the result array is in point `t`'s block iff each coordinate is in the block's range on its axis. -/
theorem mem_blk (hO : Ok m) (t : Fin (cfgM m hO).N) (i : S256x512x256.Idx) :
    i ∈ (((cfgM m hO).win 3).blk t).view.set ↔ ∀ a : Fin 3, cc0_transform_3 (grid0.coords t) a * S1x512x256.size a ≤ (i a).val
      ∧ (i a).val < cc0_transform_3 (grid0.coords t) a * S1x512x256.size a + S1x512x256.size a := by
  have inb : ∀ a : Fin 3, cc0_transform_3 (grid0.coords t) a * S1x512x256.size a + S1x512x256.size a
      ≤ S256x512x256.size a := fun a => by
    have h := Facts₀.hinb0_3 (grid0.coords t) a
    rw [Nat.add_mul, Nat.one_mul] at h
    exact h
  show i ∈ ((View.whole main_v0).slice (Rect.unit (s := S256x512x256)
    (fun a => cc0_transform_3 (grid0.coords t) a * S1x512x256.size a) S1x512x256.size inb)).set ↔ _
  rw [View.set_slice_whole, Rect.mem_set_unit]
  exact Iff.rfl

/-- Every index of the result array is in the block of the point of its batch row. -/
theorem cover (hO : Ok m) (i : S256x512x256.Idx) :
    ∃ t : Fin (cfgM m hO).N, ((cfgM m hO).win 3).flush t = true ∧ i ∈ (((cfgM m hO).win 3).blk t).view.set := by
  have hi0 : (i 0).val < 256 := (i 0).isLt
  have hi1 : (i 1).val < 512 := (i 1).isLt
  have hi2 : (i 2).val < 256 := (i 2).isLt
  refine ⟨⟨(i 0).val, Nat.lt_of_lt_of_eq hi0 N_0.symm⟩, flush0_3 (adm m hO) _, ?_⟩
  rw [mem_blk]
  have h0 := map_rows3 (grid0.coords (⟨(i 0).val, Nat.lt_of_lt_of_eq hi0 N_0.symm⟩ : Fin grid0.N))
  have hc := coord0 (⟨(i 0).val, Nat.lt_of_lt_of_eq hi0 N_0.symm⟩ : Fin grid0.N)
  intro a
  match a with
  | ⟨0, _⟩ =>
    show cc0_transform_3 (grid0.coords (⟨(i 0).val, Nat.lt_of_lt_of_eq hi0 N_0.symm⟩ : Fin grid0.N)) 0 * 1 ≤ (i 0).val
      ∧ (i 0).val < cc0_transform_3 (grid0.coords (⟨(i 0).val, Nat.lt_of_lt_of_eq hi0 N_0.symm⟩ : Fin grid0.N)) 0 * 1 + 1
    rw [h0]
    show (grid0.coords (⟨(i 0).val, Nat.lt_of_lt_of_eq hi0 N_0.symm⟩ : Fin grid0.N) 0).val * 1 ≤ (i 0).val
      ∧ (i 0).val < (grid0.coords (⟨(i 0).val, Nat.lt_of_lt_of_eq hi0 N_0.symm⟩ : Fin grid0.N) 0).val * 1 + 1
    rw [hc]
    show (i 0).val * 1 ≤ (i 0).val ∧ (i 0).val < (i 0).val * 1 + 1
    omega
  | ⟨1, _⟩ =>
    show cc0_transform_3 (grid0.coords (⟨(i 0).val, Nat.lt_of_lt_of_eq hi0 N_0.symm⟩ : Fin grid0.N)) 1 * 512 ≤ (i 1).val
      ∧ (i 1).val < cc0_transform_3 (grid0.coords (⟨(i 0).val, Nat.lt_of_lt_of_eq hi0 N_0.symm⟩ : Fin grid0.N)) 1 * 512 + 512
    rw [h0]
    show 0 * 512 ≤ (i 1).val ∧ (i 1).val < 0 * 512 + 512
    omega
  | ⟨2, _⟩ =>
    show cc0_transform_3 (grid0.coords (⟨(i 0).val, Nat.lt_of_lt_of_eq hi0 N_0.symm⟩ : Fin grid0.N)) 2 * 256 ≤ (i 2).val
      ∧ (i 2).val < cc0_transform_3 (grid0.coords (⟨(i 0).val, Nat.lt_of_lt_of_eq hi0 N_0.symm⟩ : Fin grid0.N)) 2 * 256 + 256
    rw [h0]
    show 0 * 256 ≤ (i 2).val ∧ (i 2).val < 0 * 256 + 256
    omega

/-- THE RESULT ARRAY after the run is the layer of the argument arrays. -/
theorem final (hO : Ok m) (hs : ∀ b : S256.Idx, (tbl m 0 b).toNat < 128) (c : Dev nD) :
    (dats m hO 0 c).arrAt 3 (cfgM m hO).N = result m c :=
  (dats m hO 0 c).arrAt_eq_of_cover 3 (result m c) (fun t _ => flushed_eq m hO hs c t)
    (fun (i : S256x512x256.Idx) => cover m hO i)

/-- The run, read: the result array at the layer of the arguments, the four arguments unchanged. -/
theorem run (hO : Ok m) (hs : ∀ b : S256.Idx, (tbl m 0 b).toNat < 128) :
    θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final m hO hs c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).1 1).trans (((dats m hO 0 c).arrAt_in 1 rfl _).trans ((A_eq m hO c 1).trans (V_main_arg2 m c))),
      ((h c).1 2).trans (((dats m hO 0 c).arrAt_in 2 rfl _).trans ((A_eq m hO c 2).trans (V_main_arg3 m c)))⟩)
    (run_main m ρ hO)

end Cert.KernelIdeal.Rows

end
-- ==== Proof.LibSlabGather.lean ====
/-
  `stablehlo.gather` of WHOLE SLABS of a rank-3 array, read at an index.

  What `x[idx]` lowers to for an array `x : [N, A, C]` and a vector `idx` of `R` numbers naming slabs along the
  first axis: a gather whose two offset axes are the result's last two axes, with collapsed_slice_dims `[0]`,
  start_index_map `[0]`, slice_sizes `[1, A, C]`, and the index vector on the start indices' last axis, of extent one.
  The operand has three axes. Axis 0 is collapsed and named by the start index map: its coordinate is the start index,
  read as a signed integer and clamped into `[0, N − 1]` (the clamp that makes the one-slab slice fit), with no
  batching and no offset part. Axes 1 and 2 are the two offset axes: neither is in the start index map, so the slice
  starts at `0` on both, neither is a batching axis, and the offset coordinate of each is the result's coordinate on
  the offset axis in the same position. So result element `(r, a, k)` is `x` at the clamped slab, row `a`, column `k`.
-/
import Idealize.ShloMosaic.PureOps.Ideal
import Idealize.ShloMosaic.Lib.ValueIdx

noncomputable section

namespace Idealize.ShloMosaic.SlabGather

open Idealize.ShloMosaic Idealize.ShloMosaic.ValueIdx

/-- The dimension numbers of a gather of whole slabs, for an operand `[N, A, C]`, start indices `[R, 1]` and result
    `[R, A, C]`: the result's axes 1 and 2 are the offset axes, the operand's axis 0 is collapsed and is the one axis the
    start index names, the index vector is the start indices' axis 1, and a slice is one slab, `[1, A, C]`. Their
    conditions `wf` are decided on a program's literal shapes. -/
abbrev slabDims (N A C R : Nat)
    (wf : GatherDims.WF ⟨3, ![N, A, C]⟩ ⟨2, ![R, 1]⟩ ⟨3, ![R, A, C]⟩ [1, 2] [0] [] [0] [] 1 ![1, A, C]) :
    GatherDims ⟨3, ![N, A, C]⟩ ⟨2, ![R, 1]⟩ ⟨3, ![R, A, C]⟩ where
  offsetDims := [1, 2]
  collapsedSliceDims := [0]
  operandBatchingDims := []
  startIndicesBatchingDims := []
  startIndexMap := [0]
  indexVectorDim := 1
  sliceSizes := ![1, A, C]
  wf := wf

/-- THE GATHER OF SLABS READ AT `(r, a, k)`: the operand at the slab `idx[r, 0]`, read signed and clamped into
    `[0, N − 1]`, row `a` and column `k`. On the operand's axis 0 the start is the clamped index and the batching and
    offset parts are zero; on its axes 1 and 2 the start and the batching part are zero and the offset part is the
    result's coordinate on the matching offset axis. -/
theorem gather_slabs_apply {α : Type} {N A C R w : Nat} (hN : 0 < N)
    (wf : GatherDims.WF ⟨3, ![N, A, C]⟩ ⟨2, ![R, 1]⟩ ⟨3, ![R, A, C]⟩ [1, 2] [0] [] [0] [] 1 ![1, A, C])
    (x : (⟨3, ![N, A, C]⟩ : Shape).Idx → α) (idx : IVec ⟨2, ![R, 1]⟩ w) (r : Fin R) (a : Fin A) (k : Fin C) :
    Host.gather (slabDims N A C R wf) x idx (ix3 r a k)
      = x (ix3 (⟨min (idx (ix2 r (0 : Fin 1))).toInt.toNat (N - 1), by omega⟩ : Fin N) a k) := by
  unfold Host.gather
  congr 1
  funext c
  refine Fin.ext ?_
  have hne1 : ¬ ((1 : Fin 3) = 0) := by decide
  have hne2 : ¬ ((2 : Fin 3) = 0) := by decide
  match c with
  | ⟨0, _⟩ =>
    show (slabDims N A C R wf).start (ix3 r a k) idx 0 + (slabDims N A C R wf).batchCoord (ix3 r a k) 0
      + (slabDims N A C R wf).offCoord (ix3 r a k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N A C R wf).startIndexMap from List.mem_singleton.mpr rfl)]
    have hsi : (slabDims N A C R wf).siIdx (ix3 r a k) ⟨List.idxOf (0 : Fin 3) (slabDims N A C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (slabDims N A C R wf).start (ix3 r a k) idx 1 + (slabDims N A C R wf).batchCoord (ix3 r a k) 1
      + (slabDims N A C R wf).offCoord (ix3 r a k) 1 = a.val
    have hstart : (slabDims N A C R wf).start (ix3 r a k) idx 1 = 0 := by
      unfold GatherDims.start
      rw [dif_neg (show (1 : Fin 3) ∉ (slabDims N A C R wf).startIndexMap from
        fun h => absurd (List.mem_singleton.mp h) hne1)]
    have hbatch : (slabDims N A C R wf).batchCoord (ix3 r a k) 1 = 0 :=
      GatherDims.batchCoord_eq_zero _ _ _ List.not_mem_nil
    have hoff : (slabDims N A C R wf).offCoord (ix3 r a k) 1 = a.val := by
      unfold GatherDims.offCoord
      rw [dif_pos ((GatherDims.mem_sKept _ _).mpr
        ⟨fun h => absurd (List.mem_singleton.mp h) hne1, List.not_mem_nil⟩)]
      rfl
    omega
  | ⟨2, _⟩ =>
    show (slabDims N A C R wf).start (ix3 r a k) idx 2 + (slabDims N A C R wf).batchCoord (ix3 r a k) 2
      + (slabDims N A C R wf).offCoord (ix3 r a k) 2 = k.val
    have hstart : (slabDims N A C R wf).start (ix3 r a k) idx 2 = 0 := by
      unfold GatherDims.start
      rw [dif_neg (show (2 : Fin 3) ∉ (slabDims N A C R wf).startIndexMap from
        fun h => absurd (List.mem_singleton.mp h) hne2)]
    have hbatch : (slabDims N A C R wf).batchCoord (ix3 r a k) 2 = 0 :=
      GatherDims.batchCoord_eq_zero _ _ _ List.not_mem_nil
    have hoff : (slabDims N A C R wf).offCoord (ix3 r a k) 2 = k.val := by
      unfold GatherDims.offCoord
      rw [dif_pos ((GatherDims.mem_sKept _ _).mpr
        ⟨fun h => absurd (List.mem_singleton.mp h) hne2, List.not_mem_nil⟩)]
      rfl
    omega

end Idealize.ShloMosaic.SlabGather

end
-- ==== Proof.LibWordRemainder.lean ====
/-
  Small natural numbers held in 32-bit words, and the host program's integer operations on them.

  A natural number `k` below `2³²` is the natural value of the word `BitVec.ofNat 32 k`; below `2³¹` that word's top
  bit is clear, so its signed reading is `k` too. On such words the wrapping product and sum are the words of the product
  and the sum of the numbers (`muli_ofNat`, `addi_ofNat`: the word of a number depends only on the number modulo `2³²`,
  and reduction modulo `2³²` is a ring homomorphism). The signed remainder of `k` by `d`, `0 < d`, both below `2³¹`, is
  away from the signed-division corner (the divisor is neither zero nor `-1`), both operands are non-negative, so it is
  the unsigned remainder, the word of `k % d` (`remsi_host_ofNat`). The floored remainder as a host program spells it —
  the truncated remainder `r`, plus the divisor when `r` and the divisor differ in sign and `r ≠ 0` — adds nothing here:
  neither `r` nor the divisor is negative, so the signs agree and the result is `r` itself (`floorRem_ofNat`). Likewise
  the wrap of a negative index, `select (k < 0) (k + n) k`, leaves a non-negative `k` alone (`select_slt_zero_ofNat`),
  and the guard that replaces a zero divisor by one leaves the divisor `10000` alone (`divisor_guard`).
-/
import Idealize.ShloMosaic.PureOps.Ideal
import Idealize.ShloMosaic.Lib.WordArith

noncomputable section

namespace Idealize.ShloMosaic.WordRemainder

open Idealize.ShloMosaic

/-- A natural number below `2³²` is the natural value of its 32-bit word. -/
theorem toNat_ofNat_of_lt (k : Nat) (hk : k < 2 ^ 32) : (BitVec.ofNat 32 k).toNat = k := by
  rw [BitVec.toNat_ofNat]; exact Nat.mod_eq_of_lt hk

/-- A natural number below `2³¹`, as a 32-bit word read signed and then clamped to the naturals, is itself: the signed
reading is already the number. -/
theorem toInt_toNat_ofNat (k : Nat) (hk : k < 2 ^ 31) : (BitVec.ofNat 32 k).toInt.toNat = k := by
  rw [WordArith.toInt_ofNat_small k hk]; exact Int.toNat_natCast k

/-- The wrapping product of the words of two natural numbers is the word of their product. -/
theorem muli_ofNat (a b : Nat) : IntOp.muli (BitVec.ofNat 32 a) (BitVec.ofNat 32 b) = BitVec.ofNat 32 (a * b) := by
  unfold IntOp.muli
  apply BitVec.eq_of_toNat_eq
  rw [BitVec.toNat_mul, BitVec.toNat_ofNat, BitVec.toNat_ofNat, BitVec.toNat_ofNat]
  exact (Nat.mul_mod a b (2 ^ 32)).symm

/-- The wrapping sum of the words of two natural numbers is the word of their sum. -/
theorem addi_ofNat (a b : Nat) : IntOp.addi (BitVec.ofNat 32 a) (BitVec.ofNat 32 b) = BitVec.ofNat 32 (a + b) := by
  unfold IntOp.addi
  apply BitVec.eq_of_toNat_eq
  rw [BitVec.toNat_add, BitVec.toNat_ofNat, BitVec.toNat_ofNat, BitVec.toNat_ofNat]
  exact (Nat.add_mod a b (2 ^ 32)).symm

/-- The word of a natural number below `2³¹` has its top bit clear. -/
theorem msb_ofNat_of_lt (k : Nat) (hk : k < 2 ^ 31) : (BitVec.ofNat 32 k).msb = false := by
  rw [BitVec.msb_eq_false_iff_two_mul_lt, toNat_ofNat_of_lt k (by omega)]; omega

/-- The signed remainder of `k` by `d`, for `0 < d` and both below `2³¹`, is the word of the natural remainder `k % d`:
the divisor is neither zero nor `-1`, so the operation is the truncated signed remainder, and with both operands
non-negative that is the unsigned remainder. -/
theorem remsi_host_ofNat (k d : Nat) (hk : k < 2 ^ 31) (hd0 : 0 < d) (hd : d < 2 ^ 31) :
    IntOp.remsi .host (BitVec.ofNat 32 k) (BitVec.ofNat 32 d) = BitVec.ofNat 32 (k % d) := by
  have hkn : (BitVec.ofNat 32 k).toNat = k := toNat_ofNat_of_lt k (by omega)
  have hdn : (BitVec.ofNat 32 d).toNat = d := toNat_ofNat_of_lt d (by omega)
  have hm1 : (-1 : BitVec 32).toNat = 4294967295 := by decide
  have hz : (0 : BitVec 32).toNat = 0 := rfl
  have hc : ¬ IntOp.SDivCorner (BitVec.ofNat 32 k) (BitVec.ofNat 32 d) := by
    rintro (h | ⟨_, h⟩)
    · have e := congrArg BitVec.toNat h
      rw [hdn, hz] at e; omega
    · have e := congrArg BitVec.toNat h
      rw [hdn, hm1] at e; omega
  unfold IntOp.remsi
  rw [if_neg hc, BitVec.srem_eq, msb_ofNat_of_lt k hk, msb_ofNat_of_lt d hd]
  apply BitVec.eq_of_toNat_eq
  have hlt := Nat.mod_lt k hd0
  rw [BitVec.toNat_umod, hkn, hdn, toNat_ofNat_of_lt (k % d) (by omega)]

/-- A natural number below `2³¹` is not signed-below zero. -/
theorem cmpi_slt_ofNat_zero (k : Nat) (hk : k < 2 ^ 31) : IntOp.cmpi .slt (BitVec.ofNat 32 k) 0#32 = 0#1 := by
  have h0 : (0#32 : BitVec 32).toInt = 0 := by decide
  have h : (BitVec.ofNat 32 k).slt 0#32 = false := by
    rw [BitVec.slt_eq_decide, WordArith.toInt_ofNat_small k hk, h0, decide_eq_false_iff_not]; omega
  show BitVec.ofBool ((BitVec.ofNat 32 k).slt 0#32) = 0#1
  rw [h]; rfl

/-- The floored remainder as a host program spells it — the truncated remainder `r`, plus the divisor when `r` and the
divisor differ in sign and `r` is not zero — is the word of `k % d` for `0 < d` and `k`, `d` below `2³¹`: neither `r`
nor the divisor is negative, so the correction is not taken. -/
theorem floorRem_ofNat (k d : Nat) (hk : k < 2 ^ 31) (hd0 : 0 < d) (hd : d < 2 ^ 31) :
    Scalar.select (IntOp.andi (IntOp.cmpi .ne (IntOp.cmpi .slt (IntOp.remsi .host (BitVec.ofNat 32 k) (BitVec.ofNat 32 d)) 0#32) (IntOp.cmpi .slt (BitVec.ofNat 32 d) 0#32)) (IntOp.cmpi .ne (IntOp.remsi .host (BitVec.ofNat 32 k) (BitVec.ofNat 32 d)) 0#32)) (IntOp.addi (IntOp.remsi .host (BitVec.ofNat 32 k) (BitVec.ofNat 32 d)) (BitVec.ofNat 32 d)) (IntOp.remsi .host (BitVec.ofNat 32 k) (BitVec.ofNat 32 d)) = BitVec.ofNat 32 (k % d) := by
  have hlt := Nat.mod_lt k hd0
  have hne : IntOp.cmpi .ne (0#1) (0#1) = 0#1 := by decide
  rw [remsi_host_ofNat k d hk hd0 hd, cmpi_slt_ofNat_zero (k % d) (by omega), cmpi_slt_ofNat_zero d hd, hne]
  unfold Scalar.select IntOp.andi
  rw [BitVec.zero_and, if_neg (by decide)]

/-- The wrap of a negative index, `select (k < 0) (k + n) k`, leaves a natural number `k` below `2³¹` alone. -/
theorem select_slt_zero_ofNat (k n : Nat) (hk : k < 2 ^ 31) :
    Scalar.select (IntOp.cmpi .slt (BitVec.ofNat 32 k) 0#32) (IntOp.addi (BitVec.ofNat 32 k) (BitVec.ofNat 32 n)) (BitVec.ofNat 32 k) = BitVec.ofNat 32 k := by
  rw [cmpi_slt_ofNat_zero k hk]
  unfold Scalar.select
  rw [if_neg (by decide)]

/-- The guard that replaces a zero divisor by one leaves the divisor `10000` alone. -/
theorem divisor_guard : Scalar.select (IntOp.cmpi .eq (10000#32) 0#32) 1#32 10000#32 = 10000#32 := by
  decide

end Idealize.ShloMosaic.WordRemainder

end
-- ==== Proof.ReferenceRows.lean ====
/-
  The reference read index by index: entry `(b, t, o)` of its result is the sum over `i` of `x[b, t, i] · W[σ, i, o]`
  plus `β[σ, 0, o]`, with `σ` the slab batch row `b`'s subject word names — the layer function.

  The reference first wraps a negative subject word by adding 128; a word whose natural value is below 128 is not
  negative, so the wrap leaves it alone. It then gathers one weight slab and one bias row per batch row: the gather
  reads the word signed and clamps it into `[0, 127]`, which for such a word is its natural value. The batched
  contraction over the feature axis is the sum over `i`, and the bias row is repeated over the 512 time steps.
-/
import proofs.«100180_j77214922047957_1_alg».proof.Proof.Gen.ReferenceIdeal.Read
import proofs.«100180_j77214922047957_1_alg».proof.Proof.Layer
import proofs.«100180_j77214922047957_1_alg».proof.Proof.LibSlabGather
import proofs.«100180_j77214922047957_1_alg».proof.Proof.LibWordRemainder
import Idealize.ShloMosaic.Lib.ValueIdx
import Idealize.ShloMosaic.Lib.Pipeline.Value
import Idealize.ShloMosaic.PureOps.Ideal.Laws

noncomputable section

namespace Cert.ReferenceIdeal.Rows

open Cert.ReferenceIdeal Cert.ReferenceIdeal.Gen Cert.ReferenceIdeal.Read
open Idealize.ShloMosaic Idealize.ShloMosaic.ValueIdx Cert.SubjectLayer

/-- A 32-bit word is the word of its natural value. -/
theorem word_eq (w : BitVec 32) : w = BitVec.ofNat 32 w.toNat :=
  BitVec.eq_of_toNat_eq (by rw [BitVec.toNat_ofNat]; exact (Nat.mod_eq_of_lt w.isLt).symm)

/-- The wrap of a negative index leaves a word below 128 alone. -/
theorem wrap_idle (w : BitVec 32) (hw : w.toNat < 128) :
    Scalar.select (IntOp.cmpi .slt w 0#32) (IntOp.addi w 128#32) w = w := by
  have e := WordRemainder.select_slt_zero_ofNat w.toNat 128 (by omega)
  rw [← word_eq w] at e
  exact e

/-- A word below 128, read signed, clamped to the naturals and then into `[0, 127]`, names the slab of its value. -/
theorem clamp_eq (w : BitVec 32) (hw : w.toNat < 128) : min w.toInt.toNat (128 - 1) = (slab w).val := by
  have e : w.toInt.toNat = w.toNat := by
    have h := WordRemainder.toInt_toNat_ofNat w.toNat (by omega)
    rw [← word_eq w] at h
    exact h
  rw [e]
  rfl

/-- The start index the weight gather reads for batch row `b` is that row's subject word. -/
theorem start_weights (s : S256.Idx → BitVec 32) (hs : ∀ b : S256.Idx, (s b).toNat < 128) (b : Fin 256) :
    val_main_v5 (F := Ideal) s (ix2 b (0 : Fin 1)) = s (ix1 b) := by
  have hi : idx_main_v5 (ix2 b (0 : Fin 1)) = ix1 b := funext fun a => Fin.ext (by match a with | ⟨0, _⟩ => rfl)
  rw [val_main_v5_apply, val_main_v4_apply, val_main_v1_apply, val_main_v3_apply, val_main_v0_apply, val_main_v2_apply,
    val_main_c_apply, val_main_c_0_apply, hi]
  exact wrap_idle _ (hs _)

/-- The start index the bias gather reads for batch row `b` is that row's subject word. -/
theorem start_bias (s : S256.Idx → BitVec 32) (hs : ∀ b : S256.Idx, (s b).toNat < 128) (b : Fin 256) :
    val_main_v12 (F := Ideal) s (ix2 b (0 : Fin 1)) = s (ix1 b) := by
  have hi : idx_main_v12 (ix2 b (0 : Fin 1)) = ix1 b := funext fun a => Fin.ext (by match a with | ⟨0, _⟩ => rfl)
  rw [val_main_v12_apply, val_main_v11_apply, val_main_v8_apply, val_main_v10_apply, val_main_v7_apply, val_main_v9_apply,
    val_main_c_1_apply, val_main_c_2_apply, hi]
  exact wrap_idle _ (hs _)

/-- The gathered weights at `(b, i, o)`: the slab of batch row `b`'s subject, at `(i, o)`. -/
theorem weights_apply (s : S256.Idx → BitVec 32) (W : S128x256x256.Idx → EReal)
    (hs : ∀ b : S256.Idx, (s b).toNat < 128) (b : Fin 256) (i : Fin 256) (o : Fin 256) :
    val_main_v6 (F := Ideal) s W (ix3 b i o) = W (ix3 (slab (s (ix1 b))) i o) := by
  unfold val_main_v6
  refine (SlabGather.gather_slabs_apply (N := 128) (A := 256) (C := 256) (R := 256) (by decide)
    Facts₀.gather_S128x256x256_S256x1_S256x256x256_12_0_n_n_0_1_1256256_wf W (val_main_v5 (F := Ideal) s) b i o).trans ?_
  refine congrArg W ?_
  refine congrArg (fun r : Fin 128 => ix3 r i o) (Fin.ext ?_)
  show min (val_main_v5 (F := Ideal) s (ix2 b (0 : Fin 1))).toInt.toNat (128 - 1) = (slab (s (ix1 b))).val
  rw [start_weights s hs b]
  exact clamp_eq _ (hs _)

/-- The gathered bias at `(b, 0, o)`: the bias row of batch row `b`'s subject, at `o`. -/
theorem bias_apply (s : S256.Idx → BitVec 32) (β : S128x1x256.Idx → EReal)
    (hs : ∀ b : S256.Idx, (s b).toNat < 128) (b : Fin 256) (u : Fin 1) (o : Fin 256) :
    val_main_v13 (F := Ideal) s β (ix3 b u o) = β (ix3 (slab (s (ix1 b))) u o) := by
  unfold val_main_v13
  refine (SlabGather.gather_slabs_apply (N := 128) (A := 1) (C := 256) (R := 256) (by decide)
    Facts₀.gather_S128x1x256_S256x1_S256x1x256_12_0_n_n_0_1_11256_wf β (val_main_v12 (F := Ideal) s) b u o).trans ?_
  refine congrArg β ?_
  refine congrArg (fun r : Fin 128 => ix3 r u o) (Fin.ext ?_)
  show min (val_main_v12 (F := Ideal) s (ix2 b (0 : Fin 1))).toInt.toNat (128 - 1) = (slab (s (ix1 b))).val
  rw [start_bias s hs b]
  exact clamp_eq _ (hs _)

/-- THE REFERENCE IS THE LAYER: its last stage, of subject words below 128, is the layer function of the arguments. -/
theorem reference_eq (x : S256x512x256.Idx → EReal) (s : S256.Idx → BitVec 32) (W : S128x256x256.Idx → EReal)
    (β : S128x1x256.Idx → EReal) (hs : ∀ b : S256.Idx, (s b).toNat < 128) :
    val_main_v16 (F := Ideal) x s W β = layer x s W β := by
  funext j
  obtain ⟨b, t, o, rfl⟩ : ∃ (b : Fin 256) (t : Fin 512) (o : Fin 256), j = ix3 b t o := ⟨j 0, j 1, j 2, eq_ix3 j⟩
  rw [layer_ix3, val_main_v16_apply, val_main_v14_apply, val_main_v15_apply]
  unfold entry
  have hl : ∀ k : Fin 256, lidx_main_v14 (ix3 b t o) k = ix3 b t k := fun k => funext fun a => Fin.ext (by
    match a with
    | ⟨0, _⟩ => rfl
    | ⟨1, _⟩ => rfl
    | ⟨2, _⟩ => rfl)
  have hr : ∀ k : Fin 256, ridx_main_v14 (ix3 b t o) k = ix3 b k o := fun k => funext fun a => Fin.ext (by
    match a with
    | ⟨0, _⟩ => rfl
    | ⟨1, _⟩ => rfl
    | ⟨2, _⟩ => rfl)
  have hb : idx_main_v15 (ix3 b t o) = ix3 b (0 : Fin 1) o := funext fun a => Fin.ext (by
    match a with
    | ⟨0, _⟩ => rfl
    | ⟨1, _⟩ => rfl
    | ⟨2, _⟩ => rfl)
  rw [hb, bias_apply s β hs b (0 : Fin 1) o]
  show (∑ k : Fin 256, x (lidx_main_v14 (ix3 b t o) k) * val_main_v6 (F := Ideal) s W (ridx_main_v14 (ix3 b t o) k)) + _ = _
  refine congrArg (· + β (ix3 (slab (s (ix1 b))) (0 : Fin 1) o)) (Finset.sum_congr rfl fun k _ => ?_)
  rw [hl k, hr k, weights_apply s W hs b k o]

end Cert.ReferenceIdeal.Rows

end
-- ==== Proof.lean ====
/-
  A per-subject affine layer, computed two ways.

  For each of 256 batch rows `b`, a subject word `s[b]` names one of 128 weight matrices `W[σ] : [256, 256]` and bias
  rows `β[σ] : [1, 256]`; the result is `x[b] · W[σ] + β[σ]` for the `[512, 256]` block `x[b]`. The kernel walks a grid
  of one point per batch row and lets the subject word, prefetched into scalar memory, pick the weight and bias blocks
  it fetches; the reference gathers one weight slab and one bias row per batch row and takes one batched contraction.
  On the extended reals both results are, entry by entry,
      Σ_i x[b, t, i] · W[σ, i, o] + β[σ, 0, o],
  the same sum in the same order and the same single addition, so the two agree with no appeal to finiteness.

  The subject words are used as indices. The precondition states that each is at least 0 and below 128, the range of
  the axis it indexes. Under it the kernel's table-indexed blocks lie inside their arrays (which the three frames of the
  kernel need), the reference's wrap of negative indices does nothing, and its gather's clamp does nothing.

  The modules: `Layer` (the function), `Domain` (the subject words are below 128), `KernelOk` / `KernelRows` (the
  blocks inside their arrays; what a grid point writes back), `KernelBlock` / `KernelPayload` (what the body stores,
  at an index), `KernelRun` (the written blocks tile the result), `ReferenceRows` (the reference is the function).
-/
import proofs.«100180_j77214922047957_1_alg».proof.Defs
import proofs.«100180_j77214922047957_1_alg».proof.Proof.Gen.Kernel
import proofs.«100180_j77214922047957_1_alg».proof.Proof.Gen.Kernel.Skeleton
import proofs.«100180_j77214922047957_1_alg».proof.Proof.Gen.Kernel.Launch
import proofs.«100180_j77214922047957_1_alg».proof.Proof.Gen.Kernel.Points
import proofs.«100180_j77214922047957_1_alg».proof.Proof.Gen.Kernel.Frame
import proofs.«100180_j77214922047957_1_alg».proof.Proof.Gen.KernelIdeal
import proofs.«100180_j77214922047957_1_alg».proof.Proof.Gen.KernelIdeal.Skeleton
import proofs.«100180_j77214922047957_1_alg».proof.Proof.Gen.KernelIdeal.Launch
import proofs.«100180_j77214922047957_1_alg».proof.Proof.Gen.KernelIdeal.Points
import proofs.«100180_j77214922047957_1_alg».proof.Proof.Gen.KernelIdeal.Frame
import proofs.«100180_j77214922047957_1_alg».proof.Proof.Gen.ReferenceIdeal
import proofs.«100180_j77214922047957_1_alg».proof.Proof.Gen.ReferenceIdeal.Run
import proofs.«100180_j77214922047957_1_alg».proof.Proof.Gen.ReferenceIdeal.Read
import proofs.«100180_j77214922047957_1_alg».proof.Proof.Gen.Pre_finite_inputs
import proofs.«100180_j77214922047957_1_alg».proof.Proof.Domain
import proofs.«100180_j77214922047957_1_alg».proof.Proof.KernelOk
import proofs.«100180_j77214922047957_1_alg».proof.Proof.KernelRun
import proofs.«100180_j77214922047957_1_alg».proof.Proof.ReferenceRows
import Idealize.ShloMosaic.Adequacy
import Idealize.ShloMosaic.Init

noncomputable section

namespace Cert.Proof

open Idealize.ShloMosaic Idealize.ShloMosaic.TcCoe Idealize.SL.Sem

/-- Under the precondition the word-level kernel's subject table holds words below 128. -/
theorem words_kernel (m : (ℓ : Loc Cert.Kernel.nD Cert.Kernel.τ Cert.Kernel.sig) → Buf (Elt Bits) ℓ) (h : Cert.Pre_Kernel m)
    (b : Cert.Kernel.S256.Idx) : (Cert.Kernel.Gen.tbl m 0 b).toNat < 128 :=
  Cert.Pre_finite_inputs.Domain.subject_lt (F := Bits) _ _ _ _ (h 0) b

/-- Under the precondition the idealized kernel's subject table holds words below 128. -/
theorem words_ideal (m : (ℓ : Loc Cert.KernelIdeal.nD Cert.KernelIdeal.τ Cert.KernelIdeal.sig) → Buf (Elt Ideal) ℓ)
    (h : Cert.Pre_KernelIdeal m) (b : Cert.KernelIdeal.S256.Idx) : (Cert.KernelIdeal.Gen.tbl m 0 b).toNat < 128 :=
  Cert.Pre_finite_inputs.Domain.subject_lt (F := Ideal) _ _ _ _ (h 0) b

theorem frame_kernel : Cert.frame_Kernel := fun m ρ h =>
  Cert.Kernel.Gen.frame m ρ (Cert.Kernel.Rows.ok_of_lt m (words_kernel m h))

theorem frame_ideal : Cert.frame_KernelIdeal := fun m ρ h =>
  Cert.KernelIdeal.Gen.frame m ρ (Cert.KernelIdeal.Rows.ok_of_lt m (words_ideal m h))

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer function of arguments that agree. -/
theorem algebraic : Cert.algebraic_KernelIdeal_ReferenceIdeal := by
  intro m ρ m' ρ' hpre hagree
  have hs := words_ideal m hpre
  refine ⟨fun c => Cert.KernelIdeal.Rows.result m c,
    Cert.KernelIdeal.Rows.run m ρ (Cert.KernelIdeal.Rows.ok_of_lt m hs) hs, ?_⟩
  refine (θ_run Cert.ReferenceIdeal.defs _ _).mono (fun _ h c => ⟨?_, (h c).2⟩)
    (Cert.ReferenceIdeal.Value.run (F := Ideal) m' ρ')
  obtain rfl : c = 0 := Subsingleton.elim _ _
  rw [(h 0).1, Cert.ReferenceIdeal.Read.val_main_v16_eq, (hagree 0).1, (hagree 0).2.1, (hagree 0).2.2.1, (hagree 0).2.2.2]
  exact Cert.ReferenceIdeal.Rows.reference_eq _ _ _ _ hs

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
